-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x4096 : Shape := ⟨2, ![4, 4096]⟩
abbrev S16x4x4096 : Shape := ⟨3, ![16, 4, 4096]⟩
abbrev S_ : Shape := ⟨0, ![]⟩
abbrev S4x3x256 : Shape := ⟨3, ![4, 3, 256]⟩
abbrev S4x256 : Shape := ⟨2, ![4, 256]⟩
abbrev S1x4x4096 : Shape := ⟨3, ![1, 4, 4096]⟩
abbrev S4x1x256 : Shape := ⟨3, ![4, 1, 256]⟩
abbrev S4x1x1024 : Shape := ⟨3, ![4, 1, 1024]⟩
abbrev S4x1024 : Shape := ⟨2, ![4, 1024]⟩
abbrev S4x256x1 : Shape := ⟨3, ![4, 256, 1]⟩
abbrev S4x256x1024 : Shape := ⟨3, ![4, 256, 1024]⟩
abbrev S1x4x1024 : Shape := ⟨3, ![1, 4, 1024]⟩

abbrev nBuf : Space → Nat
  | .hbm => 19
  | .vmem => 7
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x3x4096, .f32⟩
  | .hbm, ⟨4, _⟩ => ⟨S4x4096, .f32⟩
  | .hbm, ⟨5, _⟩ => ⟨S16x4x4096, .f32⟩
  | .hbm, ⟨6, _⟩ => ⟨S_, .f32⟩
  | .hbm, ⟨7, _⟩ => ⟨S4x4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S4x3x256, .f32⟩
  | .local _ .vmem, ⟨1, _⟩ => ⟨S4x3x256, .f32⟩
  | .local _ .vmem, ⟨2, _⟩ => ⟨S4x3x4096, .f32⟩
  | .local _ .vmem, ⟨3, _⟩ => ⟨S4x256, .f32⟩
  | .local _ .vmem, ⟨4, _⟩ => ⟨S4x256, .f32⟩
  | .local _ .vmem, ⟨5, _⟩ => ⟨S1x4x4096, .f32⟩
  | .local _ .vmem, ⟨6, _⟩ => ⟨S1x4x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2_0 : Ref sig .tc := ⟨.hbm, 4, rfl⟩
abbrev main_call0_v2_1 : Ref sig .tc := ⟨.hbm, 5, rfl⟩
abbrev main_call0_cst : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_cst_1 : Ref sig .tc := ⟨.hbm, 10, rfl⟩
abbrev main_call0_v5 : Ref sig .tc := ⟨.hbm, 11, rfl⟩
abbrev main_call0_cst_2 : Ref sig .tc := ⟨.hbm, 12, rfl⟩
abbrev main_call0_v6 : Ref sig .tc := ⟨.hbm, 13, rfl⟩
abbrev main_call0_cst_3 : Ref sig .tc := ⟨.hbm, 14, rfl⟩
abbrev main_call0_v7 : Ref sig .tc := ⟨.hbm, 15, rfl⟩
abbrev main_call0_v8 : Ref sig .tc := ⟨.hbm, 16, rfl⟩
abbrev main_call0_cst_4 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S4x4096x3_S4x3x4096_0_2_1 : S4x4096x3.Transposes [0, 2, 1] S4x3x4096
  reducesTo_S16x4x4096_S4x4096_d0 : S16x4x4096.ReducesTo [0] S4x4096
  h_S_ : 0 < S_.numel
  reducesTo_S4x4096_S_d0_1 : S4x4096.ReducesTo [0, 1] S_
  inb_S4x3x256_S4x3x256_0_0_0 : ∀ a, (![0, 0, 0] : Fin 3 → Nat) a + S4x3x256.size a ≤ S4x3x256.size a
  h_S4x3x256 : 0 < S4x3x256.numel
  shapeCasts_S4x3x256_S4x3x256 : S4x3x256.ShapeCasts S4x3x256
  inb_S4x3x4096_S4x3x4096_0_0_0 : ∀ a, (![0, 0, 0] : Fin 3 → Nat) a + S4x3x4096.size a ≤ S4x3x4096.size a
  h_S4x3x4096 : 0 < S4x3x4096.numel
  shapeCasts_S4x3x4096_S4x3x4096 : S4x3x4096.ShapeCasts S4x3x4096
  slices_S4x3x256_o0_0_0_S4x1x256 : S4x3x256.Slices ![0, 0, 0] S4x1x256
  shapeCasts_S4x1x256_S4x256 : S4x1x256.ShapeCasts S4x256
  slices_S4x3x256_o0_1_0_S4x1x256 : S4x3x256.Slices ![0, 1, 0] S4x1x256
  slices_S4x3x256_o0_2_0_S4x1x256 : S4x3x256.Slices ![0, 2, 0] S4x1x256
  slices_S4x3x4096_o0_0_0_S4x1x1024 : S4x3x4096.Slices ![0, 0, 0] S4x1x1024
  shapeCasts_S4x1x1024_S4x1024 : S4x1x1024.ShapeCasts S4x1024
  slices_S4x3x4096_o0_1_0_S4x1x1024 : S4x3x4096.Slices ![0, 1, 0] S4x1x1024
  slices_S4x3x4096_o0_2_0_S4x1x1024 : S4x3x4096.Slices ![0, 2, 0] S4x1x1024
  shapeCasts_S4x256_S4x256x1 : S4x256.ShapeCasts S4x256x1
  shapeCasts_S4x1024_S4x1x1024 : S4x1024.ShapeCasts S4x1x1024
  broadcasts_S4x256x1_S4x256x1024 : S4x256x1.Broadcasts S4x256x1024
  broadcasts_S4x1x1024_S4x256x1024 : S4x1x1024.Broadcasts S4x256x1024
  reduces_S4x256x1024_S4x256 : S4x256x1024.Reduces [2] S4x256
  reduces_S4x256x1024_S4x1024 : S4x256x1024.Reduces [1] S4x1024
  inb_S1x4x4096_S1x4x1024_0_0_0 : ∀ a, (![0, 0, 0] : Fin 3 → Nat) a + S1x4x1024.size a ≤ S1x4x4096.size a
  h_S1x4x1024 : 0 < S1x4x1024.numel
  shapeCasts_S1x4x1024_S4x1024 : S1x4x1024.ShapeCasts S4x1024
  shapeCasts_S4x1024_S1x4x1024 : S4x1024.ShapeCasts S1x4x1024
  slices_S4x3x4096_o0_0_1024_S4x1x1024 : S4x3x4096.Slices ![0, 0, 1024] S4x1x1024
  slices_S4x3x4096_o0_1_1024_S4x1x1024 : S4x3x4096.Slices ![0, 1, 1024] S4x1x1024
  slices_S4x3x4096_o0_2_1024_S4x1x1024 : S4x3x4096.Slices ![0, 2, 1024] S4x1x1024
  inb_S1x4x4096_S1x4x1024_0_0_1024 : ∀ a, (![0, 0, 1024] : Fin 3 → Nat) a + S1x4x1024.size a ≤ S1x4x4096.size a
  slices_S4x3x4096_o0_0_2048_S4x1x1024 : S4x3x4096.Slices ![0, 0, 2048] S4x1x1024
  slices_S4x3x4096_o0_1_2048_S4x1x1024 : S4x3x4096.Slices ![0, 1, 2048] S4x1x1024
  slices_S4x3x4096_o0_2_2048_S4x1x1024 : S4x3x4096.Slices ![0, 2, 2048] S4x1x1024
  inb_S1x4x4096_S1x4x1024_0_0_2048 : ∀ a, (![0, 0, 2048] : Fin 3 → Nat) a + S1x4x1024.size a ≤ S1x4x4096.size a
  slices_S4x3x4096_o0_0_3072_S4x1x1024 : S4x3x4096.Slices ![0, 0, 3072] S4x1x1024
  slices_S4x3x4096_o0_1_3072_S4x1x1024 : S4x3x4096.Slices ![0, 1, 3072] S4x1x1024
  slices_S4x3x4096_o0_2_3072_S4x1x1024 : S4x3x4096.Slices ![0, 2, 3072] S4x1x1024
  inb_S1x4x4096_S1x4x1024_0_0_3072 : ∀ a, (![0, 0, 3072] : Fin 3 → Nat) a + S1x4x1024.size a ≤ S1x4x4096.size a
  inb_S4x256_S4x256_0_0 : ∀ a, (![0, 0] : Fin 2 → Nat) a + S4x256.size a ≤ S4x256.size a
  h_S4x256 : 0 < S4x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256.size a ≤ S4x3x4096.size a
  hwx0_0 : ∀ i : grid0.Coords, EltTy.bits .f32 = 32 ∨ (Rect.block (s := S4x3x4096) S4x3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x4096.size a ≤ S4x3x4096.size a
  hwx0_1 : ∀ i : grid0.Coords, EltTy.bits .f32 = 32 ∨ (Rect.block (s := S4x3x4096) S4x3x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x4096.size a
  hwx0_2 : ∀ i : grid0.Coords, EltTy.bits .f32 = 32 ∨ (Rect.block (s := S4x4096) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x4096.size a ≤ S16x4x4096.size a
  hwx0_3 : ∀ i : grid0.Coords, EltTy.bits .f32 = 32 ∨ (Rect.block (s := S16x4x4096) S1x4x4096.size (cc0_transform_3 i) (hinb0_3 i)).WholeWords (EltTy.packing .f32)

variable [Facts₀]

abbrev win0_0 : Pipeline.Window sig grid0 :=
  Pipeline.Window.ofSpec (Memref.whole main_call0_v0) S4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S4x3x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2_0) S4x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2_1) S1x4x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x4096x1 : Shape := ⟨3, ![4, 4096, 1]⟩
abbrev S4x4096 : Shape := ⟨2, ![4, 4096]⟩
abbrev S4x1x4096 : Shape := ⟨3, ![4, 1, 4096]⟩
abbrev S4x4096x4096 : Shape := ⟨3, ![4, 4096, 4096]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1, .f32⟩
  | .hbm, ⟨3, _⟩ => ⟨S4x4096, .f32⟩
  | .hbm, ⟨4, _⟩ => ⟨S4x4096x1, .f32⟩
  | .hbm, ⟨5, _⟩ => ⟨S4x4096x1, .f32⟩
  | .hbm, ⟨6, _⟩ => ⟨S4x4096, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S4x4096x1, .f32⟩
  | .hbm, ⟨13, _⟩ => ⟨S4x4096, .f32⟩
  | .hbm, ⟨14, _⟩ => ⟨S4x4096x1, .f32⟩
  | .hbm, ⟨15, _⟩ => ⟨S4x4096x1, .f32⟩
  | .hbm, ⟨16, _⟩ => ⟨S4x4096, .f32⟩
  | .hbm, ⟨17, _⟩ => ⟨S4x1x4096, .f32⟩
  | .hbm, ⟨18, _⟩ => ⟨S4x4096x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S4x4096x1, .f32⟩
  | .hbm, ⟨24, _⟩ => ⟨S4x4096, .f32⟩
  | .hbm, ⟨25, _⟩ => ⟨S4x4096x1, .f32⟩
  | .hbm, ⟨26, _⟩ => ⟨S4x4096x1, .f32⟩
  | .hbm, ⟨27, _⟩ => ⟨S4x4096, .f32⟩
  | .hbm, ⟨28, _⟩ => ⟨S4x1x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S4x4096x4096, .f32⟩
  | .hbm, ⟨33, _⟩ => ⟨S4x4096x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_cst : Ref sig .tc := ⟨.hbm, 34, rfl⟩
abbrev main_v32 : Ref sig .tc := ⟨.hbm, 35, rfl⟩
abbrev main_cst_0 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_cst_2 : Ref sig .tc := ⟨.hbm, 40, rfl⟩
abbrev main_v35 : Ref sig .tc := ⟨.hbm, 41, rfl⟩
abbrev main_cst_3 : Ref sig .tc := ⟨.hbm, 42, rfl⟩
abbrev main_v36 : Ref sig .tc := ⟨.hbm, 43, rfl⟩
abbrev main_cst_4 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩

abbrev nD : Nat := 1
abbrev τ : Topo := Topo.v7x

variable {F : FTy → Type} [FloatOps F]

class Facts₀ : Prop where
  slices_S4x4096x3_S4x4096x1_0_0_0 : S4x4096x3.Slices ![0, 0, 0] S4x4096x1
  shapeCasts_S4x4096x1_S4x4096 : S4x4096x1.ShapeCasts S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  slices_S4x4096x3_S4x4096x1_0_0_1 : S4x4096x3.Slices ![0, 0, 1] S4x4096x1
  slices_S4x4096x3_S4x4096x1_0_0_2 : S4x4096x3.Slices ![0, 0, 2] S4x4096x1
  reducesTo_S4x4096x4096_S4x4096_d2 : S4x4096x4096.ReducesTo [2] S4x4096
  h_S_ : 0 < S_.numel
  reducesTo_S4x4096x4096_S4x4096_d1 : S4x4096x4096.ReducesTo [1] S4x4096
  reducesTo_S4x4096_S_d0_1 : S4x4096.ReducesTo [0, 1] S_

variable [Facts₀]

class Facts : Prop extends Facts₀ where

variable [Facts]
-- ==== Proof.LibMinFold.lean ====
/-
  Minima of finite families in a linear order, written as folds of `min` from a starting value `b`.

  Such a fold lies below `b` and below every member of the family, and is the greatest element that does. So two folds
  from one starting value agree as soon as every member of each family is a member of the other: the order in which
  members are met, how often one is met, and how the family is cut up do not matter (`min` commutes, associates and is
  idempotent). Two shapes of that fact are stated for use: a family listed as a table and folded row by row
  (`fold_rows`), and a family cut into four chunks whose minima are taken one after the other into a running minimum
  that itself starts from `b` (`fold_four_chunks`). Nothing is assumed of `b`: it need not be a top element.
-/
import Mathlib.Data.Finset.Fold
import Mathlib.Data.Fintype.Basic

namespace Cert.MinFold

variable {α : Type*} [LinearOrder α] {ι κ ρ : Type*} [Fintype ι] [Fintype κ] [Fintype ρ]

/-- A minimum taken from `b` is below `b`. -/
theorem fold_le_init (b : α) (f : ι → α) : Finset.univ.fold min b f ≤ b :=
  (Finset.fold_min_le _).2 (Or.inl le_rfl)

/-- A minimum is below each member. -/
theorem fold_le_apply (b : α) (f : ι → α) (i : ι) : Finset.univ.fold min b f ≤ f i :=
  (Finset.fold_min_le _).2 (Or.inr ⟨i, Finset.mem_univ i, le_rfl⟩)

/-- Whatever is below `b` and below each member is below the minimum. -/
theorem le_fold {b c : α} {f : ι → α} (hb : c ≤ b) (hf : ∀ i, c ≤ f i) : c ≤ Finset.univ.fold min b f :=
  (Finset.le_fold_min _).2 ⟨hb, fun i _ => hf i⟩

/-- Two families with the same members have the same minimum from `b`. -/
theorem fold_eq_of_members (b : α) (f : ι → α) (g : κ → α) (hfg : ∀ i, ∃ k, g k = f i) (hgf : ∀ k, ∃ i, f i = g k) :
    Finset.univ.fold min b f = Finset.univ.fold min b g := by
  apply le_antisymm
  · refine le_fold (fold_le_init b f) fun k => ?_
    obtain ⟨i, hi⟩ := hgf k
    exact hi ▸ fold_le_apply b f i
  · refine le_fold (fold_le_init b g) fun i => ?_
    obtain ⟨k, hk⟩ := hfg i
    exact hk ▸ fold_le_apply b g k

/-- ROWS FIRST. A table `g` whose entries are exactly the members of a family `f`: the minimum over the rows of each
    row's minimum, every fold started from `b`, is the minimum of `f`. -/
theorem fold_rows (b : α) (g : κ → ρ → α) (f : ι → α) (hfg : ∀ i, ∃ k r, g k r = f i) (hgf : ∀ k r, ∃ i, f i = g k r) :
    Finset.univ.fold min b (fun k => Finset.univ.fold min b (g k)) = Finset.univ.fold min b f := by
  apply le_antisymm
  · refine le_fold (fold_le_init b _) fun i => ?_
    obtain ⟨k, r, h⟩ := hfg i
    exact h ▸ (fold_le_apply b (fun k => Finset.univ.fold min b (g k)) k).trans (fold_le_apply b (g k) r)
  · refine le_fold (fold_le_init b f) fun k => le_fold (fold_le_init b f) fun r => ?_
    obtain ⟨i, h⟩ := hgf k r
    exact h ▸ fold_le_apply b f i

/-- A RUNNING MINIMUM OVER FOUR CHUNKS. A family `f` whose members are exactly those of four chunks `g0 … g3`: starting
    from `b` and taking in, one after the other, each chunk's own minimum from `b` gives the minimum of `f`. -/
theorem fold_four_chunks (b : α) (g0 g1 g2 g3 : ρ → α) (f : ι → α)
    (hfg : ∀ i, (∃ r, g0 r = f i) ∨ (∃ r, g1 r = f i) ∨ (∃ r, g2 r = f i) ∨ (∃ r, g3 r = f i))
    (h0 : ∀ r, ∃ i, f i = g0 r) (h1 : ∀ r, ∃ i, f i = g1 r) (h2 : ∀ r, ∃ i, f i = g2 r) (h3 : ∀ r, ∃ i, f i = g3 r) :
    min (min (min (min b (Finset.univ.fold min b g0)) (Finset.univ.fold min b g1)) (Finset.univ.fold min b g2))
        (Finset.univ.fold min b g3)
      = Finset.univ.fold min b f := by
  have below : ∀ (g : ρ → α), (∀ r, ∃ i, f i = g r) → Finset.univ.fold min b f ≤ Finset.univ.fold min b g :=
    fun g hg => le_fold (fold_le_init b f) fun r => by
      obtain ⟨i, h⟩ := hg r
      exact h ▸ fold_le_apply b f i
  apply le_antisymm
  · refine le_fold ?_ fun i => ?_
    · exact (min_le_left _ _).trans ((min_le_left _ _).trans ((min_le_left _ _).trans (min_le_left _ _)))
    · rcases hfg i with ⟨r, h⟩ | ⟨r, h⟩ | ⟨r, h⟩ | ⟨r, h⟩
      · exact h ▸ (min_le_left _ _).trans ((min_le_left _ _).trans ((min_le_left _ _).trans
          ((min_le_right _ _).trans (fold_le_apply b g0 r))))
      · exact h ▸ (min_le_left _ _).trans ((min_le_left _ _).trans ((min_le_right _ _).trans (fold_le_apply b g1 r)))
      · exact h ▸ (min_le_left _ _).trans ((min_le_right _ _).trans (fold_le_apply b g2 r))
      · exact h ▸ (min_le_right _ _).trans (fold_le_apply b g3 r)
  · exact le_min (le_min (le_min (le_min (fold_le_init b f) (below g0 h0)) (below g1 h1)) (below g2 h2)) (below g3 h3)

end Cert.MinFold
-- ==== Proof.Spec.lean ====
/-
  What both programs compute, stated once over the extended reals.

  Two clouds of 4096 points of three coordinates, in each of 4 batches: `X`, `Y : [4, 4096, 3]`. The distance between
  point `i` of `X` and point `m` of `Y` in batch `b` is the sum over the three coordinates of the absolute differences,
  added left to right: (|x₀ − y₀| + |x₁ − y₁|) + |x₂ − y₂|. For each point of `X` the least distance to a point of `Y`
  (`nearX`, a [4, 4096] array), for each point of `Y` the least distance to a point of `X` (`nearY`), every minimum
  taken from one starting value `top`; and the loss: the mean of the one array plus the mean of the other, each mean a
  sum divided by 16384, the total multiplied by one.

  Between the two stands `nearYTile`, a [16, 4, 4096] array: the points of `X` cut into 16 tiles of 256 consecutive
  rows, and for each tile and each point of `Y` the least distance to a point of that tile. Its minimum over the tiles
  is `nearY` (`nearY_eq_tiles`): a minimum over 16 × 256 rows taken tile by tile.
-/
import Idealize.ShloMosaic.PureOps.Ideal
import Idealize.ShloMosaic.Lib.ValueIdx
import proofs.«120493_j19207093748111_2_alg».proof.Proof.LibMinFold

noncomputable section

namespace Cert.Chamfer

open Idealize.ShloMosaic Idealize.ShloMosaic.ValueIdx

/-- The shapes: the point clouds, the per-point results, the per-tile results, a scalar. -/
abbrev Pts : Shape := ⟨3, ![4, 4096, 3]⟩
abbrev Near : Shape := ⟨2, ![4, 4096]⟩
abbrev NearTiles : Shape := ⟨3, ![16, 4, 4096]⟩
abbrev Sc : Shape := ⟨0, ![]⟩

/-- The absolute value on the extended reals. -/
def absE (x : EReal) : EReal := max x (-x)

/-- The distance between two points of three coordinates: the absolute differences, added left to right. -/
def d3 (p q : Fin 3 → EReal) : EReal := absE (p 0 - q 0) + absE (p 1 - q 1) + absE (p 2 - q 2)

/-- The distance between point `i` of `X` and point `m` of `Y` in batch `b`. -/
def dist (X Y : Pts.Idx → EReal) (b : Fin 4) (i m : Fin 4096) : EReal :=
  d3 (fun k => X (ix3 b i k)) (fun k => Y (ix3 b m k))

/-- The value every minimum starts from: the number the word `0x7F800000` denotes. -/
def top : EReal := Ideal.ofBits .f32 0x7F800000#32

/-- Row `r` of tile `t`: tiles are 256 consecutive rows. -/
def tileRow (t : Fin 16) (r : Fin 256) : Fin 4096 := ⟨256 * t.val + r.val, by have := t.isLt; have := r.isLt; omega⟩

/-- For each point of `X`, the least distance to a point of `Y`. -/
def nearX (X Y : Pts.Idx → EReal) : Near.Idx → EReal :=
  fun j => Finset.univ.fold min top fun m : Fin 4096 => dist X Y (j 0) (j 1) m

/-- For each point of `Y`, the least distance to a point of `X`. -/
def nearY (X Y : Pts.Idx → EReal) : Near.Idx → EReal :=
  fun j => Finset.univ.fold min top fun i : Fin 4096 => dist X Y (j 0) i (j 1)

/-- For each tile of 256 points of `X` and each point of `Y`, the least distance to a point of the tile. -/
def nearYTile (X Y : Pts.Idx → EReal) : NearTiles.Idx → EReal :=
  fun j => Finset.univ.fold min top fun r : Fin 256 => dist X Y (j 1) (tileRow (j 0) r) (j 2)

/-- Every row is a row of some tile. -/
theorem exists_tileRow (i : Fin 4096) : ∃ t r, tileRow t r = i :=
  ⟨⟨i.val / 256, by have := i.isLt; omega⟩, ⟨i.val % 256, by omega⟩, Fin.ext (by show 256 * (i.val / 256) + i.val % 256 = i.val; omega)⟩

/-- THE MINIMUM OVER ALL ROWS, TILE BY TILE: the minimum over the 16 tiles of the tiles' minima is the minimum over the 4096 rows. -/
theorem nearY_eq_tiles (X Y : Pts.Idx → EReal) (b : Fin 4) (m : Fin 4096) :
    (Finset.univ.fold min top fun t : Fin 16 => nearYTile X Y (ix3 t b m)) = nearY X Y (ix2 b m) :=
  Cert.MinFold.fold_rows top (fun t r => dist X Y b (tileRow t r) m) (fun i => dist X Y b i m)
    (fun i => by obtain ⟨t, r, h⟩ := exists_tileRow i; exact ⟨t, r, by rw [h]⟩) (fun t r => ⟨tileRow t r, rfl⟩)

/-- THE LOSS from the two arrays of least distances: each array's sum divided by 16384, the two quotients added, the total
    multiplied by one — the operations both programs end with, on the host. -/
def loss (a b : Near.Idx → EReal) : Sc.Idx → EReal :=
  mulf (F := Ideal) (φ := .f32) (constant Sc .f32 0x3F800000#32)
    (addf
      (Host.divf (Host.reduceAdd (F := Ideal) (φ := .f32) (axes := [0, 1]) a (constant Sc .f32 0x00000000#32)) (constant Sc .f32 0x46800000#32))
      (Host.divf (Host.reduceAdd (F := Ideal) (φ := .f32) (axes := [0, 1]) b (constant Sc .f32 0x00000000#32)) (constant Sc .f32 0x46800000#32)))

end Cert.Chamfer

end
-- ==== Proof.RefValue.lean ====
/-
  The reference computes the specification.

  The reference builds the whole [4, 4096, 4096] array of distances — each coordinate of each cloud sliced out, laid along
  its own axis and repeated along the other, the three absolute differences added left to right — and takes its minimum
  along the last axis (for each point of `X`) and along the middle axis (for each point of `Y`), both from the word
  `0x7F800000`. Read at an index its distance array is `dist`; a minimum along one axis is the fold of `min` over that axis's
  coordinates; so the two reduced arrays are `nearX` and `nearY`, and its result is `loss` of them.
-/
import proofs.«120493_j19207093748111_2_alg».proof.Proof.Gen.ReferenceIdeal.Read
import proofs.«120493_j19207093748111_2_alg».proof.Proof.Spec
import Idealize.ShloMosaic.PureOps.Reduce
import Idealize.ShloMosaic.PureOps.Ideal.Laws

noncomputable section

namespace Cert.Chamfer.Ref

open Cert.ReferenceIdeal Cert.ReferenceIdeal.Gen Cert.ReferenceIdeal.Read Cert.Chamfer
open Idealize.ShloMosaic Idealize.ShloMosaic.ValueIdx

variable (x0 x1 : (⟨S4x4096x3, .f32⟩ : BufTy).Contents (Elt Ideal))

/-! ## Each cloud's coordinate, laid out over the distance array -/

/-- Coordinate 0 of `X`, repeated along the last axis. -/
theorem xs0_at (b : Fin 4) (i m : Fin 4096) : val_main_v6 (F := Ideal) x0 (ix3 b i m) = x0 (ix3 b i 0) := by
  rw [val_main_v6_apply, val_main_v2_apply, val_main_v1_apply, val_main_v0_apply]
  congr 1; funext a; apply Fin.ext
  match a with
  | ⟨0, _⟩ => show (b.val * 4096 + i.val) / 4096 = b.val; have := i.isLt; omega
  | ⟨1, _⟩ => show (b.val * 4096 + i.val) / 1 % 4096 = i.val; have := i.isLt; omega
  | ⟨2, _⟩ => rfl
/-- Coordinate 0 of `Y`, repeated along the middle axis. -/
theorem ys0_at (b : Fin 4) (i m : Fin 4096) : val_main_v7 (F := Ideal) x1 (ix3 b i m) = x1 (ix3 b m 0) := by
  rw [val_main_v7_apply, val_main_v5_apply, val_main_v4_apply, val_main_v3_apply]
  congr 1; funext a; apply Fin.ext
  match a with
  | ⟨0, _⟩ => show (b.val * 4096 + m.val) / 4096 = b.val; have := m.isLt; omega
  | ⟨1, _⟩ => show (b.val * 4096 + m.val) / 1 % 4096 = m.val; have := m.isLt; omega
  | ⟨2, _⟩ => rfl
/-- Coordinate 1 of `X`. -/
theorem xs1_at (b : Fin 4) (i m : Fin 4096) : val_main_v16 (F := Ideal) x0 (ix3 b i m) = x0 (ix3 b i 1) := by
  rw [val_main_v16_apply, val_main_v12_apply, val_main_v11_apply, val_main_v10_apply]
  congr 1; funext a; apply Fin.ext
  match a with
  | ⟨0, _⟩ => show (b.val * 4096 + i.val) / 4096 = b.val; have := i.isLt; omega
  | ⟨1, _⟩ => show (b.val * 4096 + i.val) / 1 % 4096 = i.val; have := i.isLt; omega
  | ⟨2, _⟩ => rfl
/-- Coordinate 1 of `Y`. -/
theorem ys1_at (b : Fin 4) (i m : Fin 4096) : val_main_v17 (F := Ideal) x1 (ix3 b i m) = x1 (ix3 b m 1) := by
  rw [val_main_v17_apply, val_main_v15_apply, val_main_v14_apply, val_main_v13_apply]
  congr 1; funext a; apply Fin.ext
  match a with
  | ⟨0, _⟩ => show (b.val * 4096 + m.val) / 4096 = b.val; have := m.isLt; omega
  | ⟨1, _⟩ => show (b.val * 4096 + m.val) / 1 % 4096 = m.val; have := m.isLt; omega
  | ⟨2, _⟩ => rfl
/-- Coordinate 2 of `X`. -/
theorem xs2_at (b : Fin 4) (i m : Fin 4096) : val_main_v27 (F := Ideal) x0 (ix3 b i m) = x0 (ix3 b i 2) := by
  rw [val_main_v27_apply, val_main_v23_apply, val_main_v22_apply, val_main_v21_apply]
  congr 1; funext a; apply Fin.ext
  match a with
  | ⟨0, _⟩ => show (b.val * 4096 + i.val) / 4096 = b.val; have := i.isLt; omega
  | ⟨1, _⟩ => show (b.val * 4096 + i.val) / 1 % 4096 = i.val; have := i.isLt; omega
  | ⟨2, _⟩ => rfl
/-- Coordinate 2 of `Y`. -/
theorem ys2_at (b : Fin 4) (i m : Fin 4096) : val_main_v28 (F := Ideal) x1 (ix3 b i m) = x1 (ix3 b m 2) := by
  rw [val_main_v28_apply, val_main_v26_apply, val_main_v25_apply, val_main_v24_apply]
  congr 1; funext a; apply Fin.ext
  match a with
  | ⟨0, _⟩ => show (b.val * 4096 + m.val) / 4096 = b.val; have := m.isLt; omega
  | ⟨1, _⟩ => show (b.val * 4096 + m.val) / 1 % 4096 = m.val; have := m.isLt; omega
  | ⟨2, _⟩ => rfl

/-! ## The distance array -/

/-- The reference's [4, 4096, 4096] array at `(b, i, m)` is the distance between point `i` of `X` and point `m` of `Y`. -/
theorem dist_at (b : Fin 4) (i m : Fin 4096) : val_main_v31 (F := Ideal) x0 x1 (ix3 b i m) = dist x0 x1 b i m := by
  rw [val_main_v31_apply, val_main_v20_apply, val_main_v9_apply, val_main_v19_apply, val_main_v30_apply,
    val_main_v8_apply, val_main_v18_apply, val_main_v29_apply,
    xs0_at, ys0_at, xs1_at, ys1_at, xs2_at, ys2_at]
  rfl

/-! ## The two minima -/

theorem red2 : S4x4096x4096.Reduces [2] S4x4096 := by decide
theorem red1 : S4x4096x4096.Reduces [1] S4x4096 := by decide

/-- The minimum along the last axis: for each point of `X` the least distance to a point of `Y`. -/
theorem nearX_eq : val_main_v32 (F := Ideal) x0 x1 = nearX x0 x1 := by
  funext j
  obtain ⟨b, i, rfl⟩ : ∃ (b : Fin 4) (i : Fin 4096), j = ix2 b i := ⟨j 0, j 1, eq_ix2 j⟩
  unfold val_main_v32
  rw [Host.reduce_eq_fold_single FloatOps.minimumf _ _ reducesTo_S4x4096x4096_S4x4096_d2 red2 h_S_]
  show Finset.univ.fold min top (fun m : Fin 4096 => val_main_v31 (F := Ideal) x0 x1 (red2.lift (ix2 b i) m))
    = Finset.univ.fold min top fun m : Fin 4096 => dist x0 x1 b i m
  refine Finset.fold_congr fun m _ => ?_
  rw [show red2.lift (ix2 b i) m = ix3 b i m from funext fun a => match a with | ⟨0, _⟩ => rfl | ⟨1, _⟩ => rfl | ⟨2, _⟩ => rfl]
  exact dist_at x0 x1 b i m

/-- The minimum along the middle axis: for each point of `Y` the least distance to a point of `X`. -/
theorem nearY_eq : val_main_v33 (F := Ideal) x0 x1 = nearY x0 x1 := by
  funext j
  obtain ⟨b, m, rfl⟩ : ∃ (b : Fin 4) (m : Fin 4096), j = ix2 b m := ⟨j 0, j 1, eq_ix2 j⟩
  unfold val_main_v33
  rw [Host.reduce_eq_fold_single FloatOps.minimumf _ _ reducesTo_S4x4096x4096_S4x4096_d1 red1 h_S_]
  show Finset.univ.fold min top (fun i : Fin 4096 => val_main_v31 (F := Ideal) x0 x1 (red1.lift (ix2 b m) i))
    = Finset.univ.fold min top fun i : Fin 4096 => dist x0 x1 b i m
  refine Finset.fold_congr fun i _ => ?_
  rw [show red1.lift (ix2 b m) i = ix3 b i m from funext fun a => match a with | ⟨0, _⟩ => rfl | ⟨1, _⟩ => rfl | ⟨2, _⟩ => rfl]
  exact dist_at x0 x1 b i m

/-! ## The result -/

/-- THE REFERENCE'S RESULT is the loss of the two arrays of least distances. -/
theorem result_eq : val_main_v39 (F := Ideal) x0 x1 = loss (nearX x0 x1) (nearY x0 x1) := by
  rw [← nearX_eq, ← nearY_eq]
  rfl

end Cert.Chamfer.Ref

end
-- ==== Proof.Payload.lean ====
/-
  What the kernel body computes at one grid point, from the two blocks it loads.

  At a point the body holds a block `x0 : [4, 3, 256]` of the first cloud (coordinates along the middle axis, 256 of the
  cloud's points along the last) and the whole second cloud `x1 : [4, 3, 4096]`, laid out the same way. It walks the second
  cloud in four chunks of 1024 points. For a chunk starting at point `o` it forms the [4, 256, 1024] array of distances
  between the block's points and the chunk's (`chunkDist`): each coordinate of the block spread along the last axis, each
  coordinate of the chunk along the middle one, the three absolute differences added left to right — at `(b, r, q)` the
  distance `bdist b r (o + q)`. Of that array it takes the minimum along the last axis into a running minimum per block
  point, and the minimum along the middle axis, which it stores as lanes `o … o + 1023` of its second output.

  So the first output block holds, per block point, the least distance to any of the 4096 points (the running minimum
  over four chunks is the minimum over all: `MinFold.fold_four_chunks`), and the second, per point of the second cloud, the
  least distance to a point of the block (four stores that tile the lanes, each the same function of the lane).
-/
import proofs.«120493_j19207093748111_2_alg».proof.Proof.Gen.KernelIdeal.Frame
import proofs.«120493_j19207093748111_2_alg».proof.Proof.Spec
import Idealize.ShloMosaic.Lib.Pipeline.Value
import Idealize.ShloMosaic.Lib.ValueLayout
import Idealize.ShloMosaic.PureOps.Reduce
import Idealize.ShloMosaic.PureOps.Ideal.Laws

noncomputable section

namespace Cert.Chamfer.Body

open Cert.KernelIdeal Cert.KernelIdeal.Gen Cert.Chamfer
open Idealize.ShloMosaic Idealize.ShloMosaic.ValueIdx

/-- The distance between point `r` of the block and point `m` of the second cloud, in batch `b`. -/
def bdist (x0 : S4x3x256.Idx → EReal) (x1 : S4x3x4096.Idx → EReal) (b : Fin 4) (r : Fin 256) (m : Fin 4096) : EReal :=
  d3 (fun k => x0 (ix3 b k r)) (fun k => x1 (ix3 b k m))

/-- The three absolute differences of six numbers, added left to right, are the distance between the two points whose
    coordinates those numbers are. -/
theorem d3_of_coords (a0 a1 a2 c0 c1 c2 : EReal) (p q : Fin 3 → EReal) (h0 : a0 = p 0) (h1 : a1 = p 1) (h2 : a2 = p 2)
    (k0 : c0 = q 0) (k1 : c1 = q 1) (k2 : c2 = q 2) :
    (max (a0 - c0) (-(a0 - c0)) + max (a1 - c1) (-(a1 - c1))) + max (a2 - c2) (-(a2 - c2)) = d3 p q := by
  subst h0 h1 h2 k0 k1 k2; rfl

/-! ## One coordinate spread over the [4, 256, 1024] array -/

/-- Coordinate `c` of the block, spread along the last axis: at `(b, r, q)` it is the block at `(b, c, r)`. -/
theorem blockCoord_at (X : FVec Ideal S4x3x256 .f32) (c : Fin 3) (hs : S4x3x256.Slices ![0, c.val, 0] S4x1x256)
    (b : Fin 4) (r : Fin 256) (q : Fin 1024) :
    broadcastTo S4x256x1024 (shapeCast S4x256x1 (shapeCast S4x256 (extractStridedSlice S4x1x256 ![0, c.val, 0] X hs)
        shapeCasts_S4x1x256_S4x256) shapeCasts_S4x256_S4x256x1) broadcasts_S4x256x1_S4x256x1024 (ix3 b r q)
      = X (ix3 b c r) := by
  refine (broadcastTo_apply _ _ (ix3 b r q) (ix3 b r (0 : Fin 1)) fun a => ?_).trans ?_
  · match a with
    | ⟨0, _⟩ => show b.val = if (4 : Nat) = 1 then 0 else b.val; rw [if_neg (by decide)]
    | ⟨1, _⟩ => show r.val = if (256 : Nat) = 1 then 0 else r.val; rw [if_neg (by decide)]
    | ⟨2, _⟩ => show 0 = if (1 : Nat) = 1 then 0 else q.val; rw [if_pos rfl]
  refine (shapeCast_apply _ _ (ix3 b r (0 : Fin 1)) (ix2 b r) ?_).trans ?_
  · rw [Shape.rowMajor_val_two, Shape.rowMajor_val_three]
    show b.val * 256 + r.val = (b.val * 256 + r.val) * 1 + 0
    omega
  refine (shapeCast_apply _ _ (ix2 b r) (ix3 b (0 : Fin 1) r) ?_).trans ?_
  · rw [Shape.rowMajor_val_three, Shape.rowMajor_val_two]
    show (b.val * 1 + 0) * 256 + r.val = b.val * 256 + r.val
    omega
  refine extractStridedSlice_apply _ _ _ (ix3 b (0 : Fin 1) r) (ix3 b c r) fun a => ?_
  match a with
  | ⟨0, _⟩ => show b.val = 0 + b.val; omega
  | ⟨1, _⟩ => show c.val = c.val + 0; omega
  | ⟨2, _⟩ => show r.val = 0 + r.val; omega

/-- Coordinate `c` of the chunk from point `o`, spread along the middle axis: at `(b, r, q)` it is the second cloud at
    `(b, c, o + q)`. -/
theorem chunkCoord_at (Y : FVec Ideal S4x3x4096 .f32) (c : Fin 3) (o : Nat) (hs : S4x3x4096.Slices ![0, c.val, o] S4x1x1024)
    (b : Fin 4) (r : Fin 256) (q : Fin 1024) (m : Fin 4096) (hm : m.val = o + q.val) :
    broadcastTo S4x256x1024 (shapeCast S4x1x1024 (shapeCast S4x1024 (extractStridedSlice S4x1x1024 ![0, c.val, o] Y hs)
        shapeCasts_S4x1x1024_S4x1024) shapeCasts_S4x1024_S4x1x1024) broadcasts_S4x1x1024_S4x256x1024 (ix3 b r q)
      = Y (ix3 b c m) := by
  refine (broadcastTo_apply _ _ (ix3 b r q) (ix3 b (0 : Fin 1) q) fun a => ?_).trans ?_
  · match a with
    | ⟨0, _⟩ => show b.val = if (4 : Nat) = 1 then 0 else b.val; rw [if_neg (by decide)]
    | ⟨1, _⟩ => show 0 = if (1 : Nat) = 1 then 0 else r.val; rw [if_pos rfl]
    | ⟨2, _⟩ => show q.val = if (1024 : Nat) = 1 then 0 else q.val; rw [if_neg (by decide)]
  refine (shapeCast_apply _ _ (ix3 b (0 : Fin 1) q) (ix2 b q) ?_).trans ?_
  · rw [Shape.rowMajor_val_two, Shape.rowMajor_val_three]
    show b.val * 1024 + q.val = (b.val * 1 + 0) * 1024 + q.val
    omega
  refine (shapeCast_apply _ _ (ix2 b q) (ix3 b (0 : Fin 1) q) ?_).trans ?_
  · rw [Shape.rowMajor_val_three, Shape.rowMajor_val_two]
    show (b.val * 1 + 0) * 1024 + q.val = b.val * 1024 + q.val
    omega
  refine extractStridedSlice_apply _ _ _ (ix3 b (0 : Fin 1) q) (ix3 b c m) fun a => ?_
  match a with
  | ⟨0, _⟩ => show b.val = 0 + b.val; omega
  | ⟨1, _⟩ => show c.val = c.val + 0; omega
  | ⟨2, _⟩ => show m.val = o + q.val; exact hm

/-! ## One chunk's distances -/

/-- The [4, 256, 1024] array of distances between the block's points and the chunk of 1024 points from point `o`, spelt
    with the body's operations over the second cloud `Y` and the block's three coordinate rows `X0 X1 X2 : [4, 256]`. -/
def chunkDist (Y : FVec Ideal S4x3x4096 .f32) (X0 X1 X2 : FVec Ideal S4x256 .f32) (o : Nat)
    (h0 : S4x3x4096.Slices ![0, 0, o] S4x1x1024) (h1 : S4x3x4096.Slices ![0, 1, o] S4x1x1024)
    (h2 : S4x3x4096.Slices ![0, 2, o] S4x1x1024) : FVec Ideal S4x256x1024 .f32 :=
  addf
    (addf
      (absf (subf (broadcastTo S4x256x1024 (shapeCast S4x256x1 X0 shapeCasts_S4x256_S4x256x1) broadcasts_S4x256x1_S4x256x1024)
        (broadcastTo S4x256x1024 (shapeCast S4x1x1024 (shapeCast S4x1024 (extractStridedSlice S4x1x1024 ![0, 0, o] Y h0)
          shapeCasts_S4x1x1024_S4x1024) shapeCasts_S4x1024_S4x1x1024) broadcasts_S4x1x1024_S4x256x1024)))
      (absf (subf (broadcastTo S4x256x1024 (shapeCast S4x256x1 X1 shapeCasts_S4x256_S4x256x1) broadcasts_S4x256x1_S4x256x1024)
        (broadcastTo S4x256x1024 (shapeCast S4x1x1024 (shapeCast S4x1024 (extractStridedSlice S4x1x1024 ![0, 1, o] Y h1)
          shapeCasts_S4x1x1024_S4x1024) shapeCasts_S4x1024_S4x1x1024) broadcasts_S4x1x1024_S4x256x1024))))
    (absf (subf (broadcastTo S4x256x1024 (shapeCast S4x256x1 X2 shapeCasts_S4x256_S4x256x1) broadcasts_S4x256x1_S4x256x1024)
      (broadcastTo S4x256x1024 (shapeCast S4x1x1024 (shapeCast S4x1024 (extractStridedSlice S4x1x1024 ![0, 2, o] Y h2)
        shapeCasts_S4x1x1024_S4x1024) shapeCasts_S4x1024_S4x1x1024) broadcasts_S4x1x1024_S4x256x1024)))

variable (x0 : Vec Ideal S4x3x256 .f32) (x1 : Vec Ideal S4x3x4096 .f32)

/-- The body's casts of a loaded block to its own shape change nothing. -/
theorem cloud_eq : k0_pay7 (F := Ideal) x1 = x1 := shapeCast_self _ _
theorem block_eq : k0_pay6 (F := Ideal) x0 = x0 := shapeCast_self _ _

/-- ONE CHUNK'S DISTANCES AT AN INDEX: over the loaded blocks, at `(b, r, q)` the chunk from `o` holds the distance between
    block point `r` and point `o + q` of the second cloud. -/
theorem chunkDist_at (o : Nat) (h0 : S4x3x4096.Slices ![0, 0, o] S4x1x1024) (h1 : S4x3x4096.Slices ![0, 1, o] S4x1x1024)
    (h2 : S4x3x4096.Slices ![0, 2, o] S4x1x1024) (b : Fin 4) (r : Fin 256) (q : Fin 1024) (m : Fin 4096) (hm : m.val = o + q.val) :
    chunkDist (k0_pay7 (F := Ideal) x1) (k0_pay8 (F := Ideal) x0) (k0_pay9 (F := Ideal) x0) (k0_pay10 (F := Ideal) x0) o h0 h1 h2 (ix3 b r q)
      = bdist x0 x1 b r m := by
  have e0 := (blockCoord_at (k0_pay6 (F := Ideal) x0) 0 slices_S4x3x256_o0_0_0_S4x1x256 b r q).trans (congrFun (block_eq x0) _)
  have e1 := (blockCoord_at (k0_pay6 (F := Ideal) x0) 1 slices_S4x3x256_o0_1_0_S4x1x256 b r q).trans (congrFun (block_eq x0) _)
  have e2 := (blockCoord_at (k0_pay6 (F := Ideal) x0) 2 slices_S4x3x256_o0_2_0_S4x1x256 b r q).trans (congrFun (block_eq x0) _)
  have f0 := (chunkCoord_at (k0_pay7 (F := Ideal) x1) 0 o h0 b r q m hm).trans (congrFun (cloud_eq x1) _)
  have f1 := (chunkCoord_at (k0_pay7 (F := Ideal) x1) 1 o h1 b r q m hm).trans (congrFun (cloud_eq x1) _)
  have f2 := (chunkCoord_at (k0_pay7 (F := Ideal) x1) 2 o h2 b r q m hm).trans (congrFun (cloud_eq x1) _)
  exact d3_of_coords _ _ _ _ _ _ _ _ e0 e1 e2 f0 f1 f2

/-! ## The printed payloads are chunks -/

theorem chunk0_eq : k0_pay11 (F := Ideal) x0 x1
    = chunkDist (k0_pay7 x1) (k0_pay8 x0) (k0_pay9 x0) (k0_pay10 x0) 0 slices_S4x3x4096_o0_0_0_S4x1x1024
        slices_S4x3x4096_o0_1_0_S4x1x1024 slices_S4x3x4096_o0_2_0_S4x1x1024 := rfl
theorem chunk1_eq : k0_pay16 (F := Ideal) (k0_pay7 x1) (k0_pay8 x0) (k0_pay9 x0) (k0_pay10 x0) (k0_pay14 x1) (k0_pay15 x1)
    = chunkDist (k0_pay7 x1) (k0_pay8 x0) (k0_pay9 x0) (k0_pay10 x0) 1024 slices_S4x3x4096_o0_0_1024_S4x1x1024
        slices_S4x3x4096_o0_1_1024_S4x1x1024 slices_S4x3x4096_o0_2_1024_S4x1x1024 := rfl
theorem chunk2_eq : k0_pay1 (F := Ideal) (k0_pay19 (k0_pay7 x1) (k0_pay8 x0) (k0_pay9 x0)) (k0_pay20 (k0_pay7 x1) (k0_pay10 x0))
    = chunkDist (k0_pay7 x1) (k0_pay8 x0) (k0_pay9 x0) (k0_pay10 x0) 2048 slices_S4x3x4096_o0_0_2048_S4x1x1024
        slices_S4x3x4096_o0_1_2048_S4x1x1024 slices_S4x3x4096_o0_2_2048_S4x1x1024 := rfl
theorem chunk3_eq : k0_pay3 (F := Ideal) (k0_pay7 x1) (k0_pay8 x0) (k0_pay9 x0) (k0_pay10 x0)
    = chunkDist (k0_pay7 x1) (k0_pay8 x0) (k0_pay9 x0) (k0_pay10 x0) 3072 slices_S4x3x4096_o0_0_3072_S4x1x1024
        slices_S4x3x4096_o0_1_3072_S4x1x1024 slices_S4x3x4096_o0_2_3072_S4x1x1024 := rfl

end Cert.Chamfer.Body

end
-- ==== Proof.LibMinReduce.lean ====
/-
  A minimum along ONE axis, read at the ideal values as the fold of `min` over that axis's coordinates.

  At the extended reals a float `vector.multi_reduction <minimumf>` over one axis is, at each kept index `j`, the fold of `min`
  from the accumulator's value over the reduced axis's coordinates `k`, reading the source at `j` with `k` inserted
  (`Shape.Reduces.lift`); the host's one-operand `stablehlo.reduce` with a `minimum` body over one axis is the same fold from
  its initial value's element. (The order of a reduction does not matter for `min`, which commutes and associates.) These are
  the `minimumf` counterparts of the library's `Ideal.multiReduction_maximumf_single`.
-/
import Idealize.ShloMosaic.PureOps.Reduce
import Idealize.ShloMosaic.PureOps.Ideal.Laws

namespace Cert.MinReduce

open Idealize.ShloMosaic

variable {s t : Shape} {φ : FTy} {a : Fin s.rank}

/-- A float `vector.multi_reduction <minimumf>` over one axis, at the ideal values. -/
theorem multiReduction_minimumf_single (src : FVec Ideal s φ) (acc : BitVec φ.bits) (h : s.Reduces [a] t)
    (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]
  exact h.fold_filter_drop_single _ _ src j

/-- The host's `stablehlo.reduce` with a `minimum` body over one axis, at the ideal values (`h'` is the shape fact the
    operation carries, `h` the same fact in the form that names the inserted index). -/
theorem hostReduce_minimumf_single {u : Shape} (x : FVec Ideal s φ) (init : u.Idx → Ideal φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

end Cert.MinReduce
-- ==== Proof.Minima.lean ====
/-
  The two minima the kernel body takes of each chunk's distances, and what its two output blocks hold.

  Per chunk of 1024 points of the second cloud the body takes the minimum of the chunk's [4, 256, 1024] distances along the
  last axis — per block point, the least distance to a point of the chunk — and along the middle axis — per point of the
  chunk, the least distance to a block point. The first it takes into a running minimum that starts from the word
  `0x7F800000`; after the four chunks that is the least distance to any of the 4096 points, since every point lies in one
  chunk (`min_over_chunks`). The second it stores as the chunk's 1024 lanes of the second output block; the four stores
  tile the block's lanes and each holds the same function of its lane (`colMin`).
-/
import proofs.«120493_j19207093748111_2_alg».proof.Proof.Payload
import proofs.«120493_j19207093748111_2_alg».proof.Proof.LibMinReduce

noncomputable section

namespace Cert.Chamfer.Body

open Cert.KernelIdeal Cert.KernelIdeal.Gen Cert.Chamfer
open Idealize.ShloMosaic Idealize.ShloMosaic.ValueIdx

variable (x0 : Vec Ideal S4x3x256 .f32) (x1 : Vec Ideal S4x3x4096 .f32)

/-! ## A chunk's two minima -/

/-- The minimum of a [4, 256, 1024] array along its last axis, from the word `0x7F800000`, as the body takes it … -/
def laneMin (A : FVec Ideal S4x256x1024 .f32) : FVec Ideal S4x256 .f32 :=
  multiReduction .minimumf [2] S4x256 A 0x7F800000#32 reduces_S4x256x1024_S4x256 (.inl rfl) rfl
/-- … and along its middle axis. -/
def sublaneMin (A : FVec Ideal S4x256x1024 .f32) : FVec Ideal S4x1024 .f32 :=
  multiReduction .minimumf [1] S4x1024 A 0x7F800000#32 reduces_S4x256x1024_S4x1024 (.inl rfl) rfl

/-- Point `q` of the chunk that starts at point `o` of the second cloud. -/
def chunkPt (o : Nat) (ho : o + 1024 ≤ 4096) (q : Fin 1024) : Fin 4096 := ⟨o + q.val, by have := q.isLt; omega⟩

/-- Every point of the second cloud is a point of one of the four chunks. -/
theorem chunkPt_cases (m : Fin 4096) :
    (∃ q, chunkPt 0 (by omega) q = m) ∨ (∃ q, chunkPt 1024 (by omega) q = m) ∨ (∃ q, chunkPt 2048 (by omega) q = m)
      ∨ (∃ q, chunkPt 3072 (by omega) q = m) := by
  have hm := m.isLt
  by_cases c0 : m.val < 1024
  · exact Or.inl ⟨⟨m.val, c0⟩, Fin.ext (by show 0 + m.val = m.val; omega)⟩
  by_cases c1 : m.val < 2048
  · exact Or.inr (Or.inl ⟨⟨m.val - 1024, by omega⟩, Fin.ext (by show 1024 + (m.val - 1024) = m.val; omega)⟩)
  by_cases c2 : m.val < 3072
  · exact Or.inr (Or.inr (Or.inl ⟨⟨m.val - 2048, by omega⟩, Fin.ext (by show 2048 + (m.val - 2048) = m.val; omega)⟩))
  · exact Or.inr (Or.inr (Or.inr ⟨⟨m.val - 3072, by omega⟩, Fin.ext (by show 3072 + (m.val - 3072) = m.val; omega)⟩))

/-- The running minimum over the four chunks is the minimum over the whole second cloud. -/
theorem min_over_chunks (f : Fin 4096 → EReal) :
    min (min (min (min top (Finset.univ.fold min top fun q => f (chunkPt 0 (by omega) q)))
            (Finset.univ.fold min top fun q => f (chunkPt 1024 (by omega) q)))
          (Finset.univ.fold min top fun q => f (chunkPt 2048 (by omega) q)))
        (Finset.univ.fold min top fun q => f (chunkPt 3072 (by omega) q))
      = Finset.univ.fold min top f :=
  Cert.MinFold.fold_four_chunks top _ _ _ _ f
    (fun m => by
      rcases chunkPt_cases m with ⟨q, h⟩ | ⟨q, h⟩ | ⟨q, h⟩ | ⟨q, h⟩
      · exact Or.inl ⟨q, by rw [h]⟩
      · exact Or.inr (Or.inl ⟨q, by rw [h]⟩)
      · exact Or.inr (Or.inr (Or.inl ⟨q, by rw [h]⟩))
      · exact Or.inr (Or.inr (Or.inr ⟨q, by rw [h]⟩)))
    (fun q => ⟨_, rfl⟩) (fun q => ⟨_, rfl⟩) (fun q => ⟨_, rfl⟩) (fun q => ⟨_, rfl⟩)

/-- A chunk's minimum along the last axis: per block point, the least distance to a point of the chunk. -/
theorem laneMin_chunk_at (o : Nat) (ho : o + 1024 ≤ 4096) (h0 : S4x3x4096.Slices ![0, 0, o] S4x1x1024)
    (h1 : S4x3x4096.Slices ![0, 1, o] S4x1x1024) (h2 : S4x3x4096.Slices ![0, 2, o] S4x1x1024) (b : Fin 4) (r : Fin 256) :
    laneMin (chunkDist (k0_pay7 (F := Ideal) x1) (k0_pay8 (F := Ideal) x0) (k0_pay9 (F := Ideal) x0) (k0_pay10 (F := Ideal) x0) o h0 h1 h2) (ix2 b r)
      = Finset.univ.fold min top fun q : Fin 1024 => bdist x0 x1 b r (chunkPt o ho q) := by
  unfold laneMin
  refine (Cert.MinReduce.multiReduction_minimumf_single _ _ reduces_S4x256x1024_S4x256 _ _ (ix2 b r)).trans ?_
  show Finset.univ.fold min top (fun q : Fin 1024 => chunkDist _ _ _ _ o h0 h1 h2 (reduces_S4x256x1024_S4x256.lift (ix2 b r) q)) = _
  refine Finset.fold_congr fun q _ => ?_
  rw [show reduces_S4x256x1024_S4x256.lift (ix2 b r) q = ix3 b r q from
    funext fun a => match a with | ⟨0, _⟩ => rfl | ⟨1, _⟩ => rfl | ⟨2, _⟩ => rfl]
  exact chunkDist_at x0 x1 o h0 h1 h2 b r q _ rfl

/-- A chunk's minimum along the middle axis: per point of the chunk, the least distance to a block point. -/
theorem sublaneMin_chunk_at (o : Nat) (ho : o + 1024 ≤ 4096) (h0 : S4x3x4096.Slices ![0, 0, o] S4x1x1024)
    (h1 : S4x3x4096.Slices ![0, 1, o] S4x1x1024) (h2 : S4x3x4096.Slices ![0, 2, o] S4x1x1024) (b : Fin 4) (q : Fin 1024) :
    sublaneMin (chunkDist (k0_pay7 (F := Ideal) x1) (k0_pay8 (F := Ideal) x0) (k0_pay9 (F := Ideal) x0) (k0_pay10 (F := Ideal) x0) o h0 h1 h2) (ix2 b q)
      = Finset.univ.fold min top fun r : Fin 256 => bdist x0 x1 b r (chunkPt o ho q) := by
  unfold sublaneMin
  refine (Cert.MinReduce.multiReduction_minimumf_single _ _ reduces_S4x256x1024_S4x1024 _ _ (ix2 b q)).trans ?_
  show Finset.univ.fold min top (fun r : Fin 256 => chunkDist _ _ _ _ o h0 h1 h2 (reduces_S4x256x1024_S4x1024.lift (ix2 b q) r)) = _
  refine Finset.fold_congr fun r _ => ?_
  rw [show reduces_S4x256x1024_S4x1024.lift (ix2 b q) r = ix3 b r q from
    funext fun a => match a with | ⟨0, _⟩ => rfl | ⟨1, _⟩ => rfl | ⟨2, _⟩ => rfl]
  exact chunkDist_at x0 x1 o h0 h1 h2 b r q _ rfl

/-! ## The first output block: per block point, the least distance to the second cloud -/

theorem hz3 : (![0, 0, 0] : Fin 3 → Nat) = fun _ => 0 := funext fun a => by fin_cases a <;> rfl
theorem hz2 : (![0, 0] : Fin 2 → Nat) = fun _ => 0 := funext fun a => by fin_cases a <;> rfl

/-- The stored value is the running minimum: from the word `0x7F800000`, the four chunks' minima taken in one after the other. -/
theorem rowPayload_eq :
    k0_pay4 (F := Ideal) (k0_pay7 x1) (k0_pay8 x0) (k0_pay9 x0) (k0_pay10 x0)
        (k0_pay17 (k0_pay7 x1) (k0_pay8 x0) (k0_pay9 x0) (k0_pay10 x0) (k0_pay12 x0 x1) (k0_pay14 x1) (k0_pay15 x1))
        (k0_pay19 (k0_pay7 x1) (k0_pay8 x0) (k0_pay9 x0)) (k0_pay20 (k0_pay7 x1) (k0_pay10 x0))
      = minimumf (minimumf (minimumf (minimumf (broadcast S4x256 (Scalar.ofBits (F := Ideal) .f32 0x7F800000#32)) (laneMin (k0_pay11 x0 x1)))
            (laneMin (k0_pay16 (k0_pay7 x1) (k0_pay8 x0) (k0_pay9 x0) (k0_pay10 x0) (k0_pay14 x1) (k0_pay15 x1))))
          (laneMin (k0_pay1 (k0_pay19 (k0_pay7 x1) (k0_pay8 x0) (k0_pay9 x0)) (k0_pay20 (k0_pay7 x1) (k0_pay10 x0)))))
        (laneMin (k0_pay3 (k0_pay7 x1) (k0_pay8 x0) (k0_pay9 x0) (k0_pay10 x0))) := rfl

/-- Each chunk's stored lanes are the chunk's minimum along the middle axis, with a leading unit axis added. -/
theorem colPayload0_eq : k0_pay13 (F := Ideal) x0 x1
    = shapeCast S1x4x1024 (sublaneMin (k0_pay11 x0 x1)) shapeCasts_S4x1024_S1x4x1024 := rfl
theorem colPayload1_eq : k0_pay18 (F := Ideal) (k0_pay7 x1) (k0_pay8 x0) (k0_pay9 x0) (k0_pay10 x0) (k0_pay14 x1) (k0_pay15 x1)
    = shapeCast S1x4x1024 (sublaneMin (k0_pay16 (k0_pay7 x1) (k0_pay8 x0) (k0_pay9 x0) (k0_pay10 x0) (k0_pay14 x1) (k0_pay15 x1)))
        shapeCasts_S4x1024_S1x4x1024 := rfl
theorem colPayload2_eq : k0_pay2 (F := Ideal) (k0_pay19 (k0_pay7 x1) (k0_pay8 x0) (k0_pay9 x0)) (k0_pay20 (k0_pay7 x1) (k0_pay10 x0))
    = shapeCast S1x4x1024 (sublaneMin (k0_pay1 (k0_pay19 (k0_pay7 x1) (k0_pay8 x0) (k0_pay9 x0)) (k0_pay20 (k0_pay7 x1) (k0_pay10 x0))))
        shapeCasts_S4x1024_S1x4x1024 := rfl
theorem colPayload3_eq : k0_pay5 (F := Ideal) (k0_pay7 x1) (k0_pay8 x0) (k0_pay9 x0) (k0_pay10 x0)
    = shapeCast S1x4x1024 (sublaneMin (k0_pay3 (k0_pay7 x1) (k0_pay8 x0) (k0_pay9 x0) (k0_pay10 x0))) shapeCasts_S4x1024_S1x4x1024 := rfl

attribute [local irreducible] laneMin sublaneMin

/-- The word the running minimum starts from denotes `top`. -/
theorem top_eq : Scalar.ofBits (F := Ideal) .f32 0x7F800000#32 = top := rfl

/-- The running minimum of five arrays, at an index, is the running minimum of their values there. -/
theorem run4_at (B L0 L1 L2 L3 : FVec Ideal S4x256 .f32) (j : S4x256.Idx) (b' c0 c1 c2 c3 : EReal)
    (hb : B j = b') (h0 : L0 j = c0) (h1 : L1 j = c1) (h2 : L2 j = c2) (h3 : L3 j = c3) :
    minimumf (minimumf (minimumf (minimumf B L0) L1) L2) L3 j = min (min (min (min b' c0) c1) c2) c3 := by
  subst hb h0 h1 h2 h3; rfl

/-- THE FIRST OUTPUT BLOCK at `(b, r)`: the least distance from block point `r` to a point of the second cloud. -/
theorem out2_at (b : Fin 4) (r : Fin 256) :
    out0_2 (F := Ideal) x0 x1 (ix2 b r) = Finset.univ.fold min top fun m : Fin 4096 => bdist x0 x1 b r m := by
  unfold out0_2
  rw [View.canon_unit_zero hz2]
  simp only [View.ld_unit_zero (S := S4x3x256) hz3, View.ld_unit_zero (S := S4x3x4096) hz3]
  rw [rowPayload_eq, chunk0_eq, chunk1_eq, chunk2_eq, chunk3_eq]
  refine (run4_at _ _ _ _ _ (ix2 b r) top _ _ _ _ top_eq
    (laneMin_chunk_at x0 x1 0 (by omega) slices_S4x3x4096_o0_0_0_S4x1x1024 slices_S4x3x4096_o0_1_0_S4x1x1024
      slices_S4x3x4096_o0_2_0_S4x1x1024 b r)
    (laneMin_chunk_at x0 x1 1024 (by omega) slices_S4x3x4096_o0_0_1024_S4x1x1024 slices_S4x3x4096_o0_1_1024_S4x1x1024
      slices_S4x3x4096_o0_2_1024_S4x1x1024 b r)
    (laneMin_chunk_at x0 x1 2048 (by omega) slices_S4x3x4096_o0_0_2048_S4x1x1024 slices_S4x3x4096_o0_1_2048_S4x1x1024
      slices_S4x3x4096_o0_2_2048_S4x1x1024 b r)
    (laneMin_chunk_at x0 x1 3072 (by omega) slices_S4x3x4096_o0_0_3072_S4x1x1024 slices_S4x3x4096_o0_1_3072_S4x1x1024
      slices_S4x3x4096_o0_2_3072_S4x1x1024 b r)).trans ?_
  exact min_over_chunks fun m => bdist x0 x1 b r m

/-! ## The second output block: per point of the second cloud, the least distance to a block point -/

/-- What the second output block holds, as one function of its index `(0, b, m)`. -/
def colMin : S1x4x4096.Idx → EReal := fun y => Finset.univ.fold min top fun r : Fin 256 => bdist x0 x1 (y 1) r (y 2)

/-- One store's value is `colMin` on the lanes it writes: the chunk from `o` goes to lanes `o … o + 1023`. -/
theorem colPiece_at (o : Nat) (ho : o + 1024 ≤ 4096) (h0 : S4x3x4096.Slices ![0, 0, o] S4x1x1024)
    (h1 : S4x3x4096.Slices ![0, 1, o] S4x1x1024) (h2 : S4x3x4096.Slices ![0, 2, o] S4x1x1024)
    (inb : ∀ a, (![0, 0, o] : Fin 3 → Nat) a + S1x4x1024.size a ≤ S1x4x4096.size a) (x : S1x4x1024.Idx) :
    shapeCast S1x4x1024 (sublaneMin (chunkDist (k0_pay7 (F := Ideal) x1) (k0_pay8 (F := Ideal) x0) (k0_pay9 (F := Ideal) x0)
        (k0_pay10 (F := Ideal) x0) o h0 h1 h2)) shapeCasts_S4x1024_S1x4x1024 x
      = colMin x0 x1 ((Rect.unit (s := S1x4x4096) ![0, 0, o] S1x4x1024.size inb).emb x) := by
  obtain ⟨u, b, q, rfl⟩ : ∃ (u : Fin 1) (b : Fin 4) (q : Fin 1024), x = ix3 u b q := ⟨x 0, x 1, x 2, eq_ix3 x⟩
  rw [shapeCast_ab_1ab_apply, sublaneMin_chunk_at x0 x1 o ho]
  unfold colMin
  have e1 : (Rect.unit (s := S1x4x4096) ![0, 0, o] S1x4x1024.size inb).emb (ix3 u b q) 1 = b :=
    Fin.ext (by show 0 + 1 * b.val = b.val; omega)
  have e2 : (Rect.unit (s := S1x4x4096) ![0, 0, o] S1x4x1024.size inb).emb (ix3 u b q) 2 = chunkPt o ho q :=
    Fin.ext (by show o + 1 * q.val = o + q.val; omega)
  rw [e1, e2]

/-- THE SECOND OUTPUT BLOCK: its four stores tile the lanes and each restricts `colMin`. -/
theorem out3_eq : out0_3 (F := Ideal) x0 x1 = colMin x0 x1 := by
  funext y
  unfold out0_3
  simp only [View.ld_unit_zero (S := S4x3x256) hz3, View.ld_unit_zero (S := S4x3x4096) hz3]
  rw [colPayload0_eq, colPayload1_eq, colPayload2_eq, colPayload3_eq, chunk0_eq, chunk1_eq, chunk2_eq, chunk3_eq]
  refine View.canon_apply_of_pieces (Val := Elt Ideal) (e := .f32) (colMin x0 x1) _ (fun p hp x => ?_) y (cover0_3 _ _ _ _ y)
  simp only [List.mem_cons, List.not_mem_nil, or_false] at hp
  rcases hp with rfl | rfl | rfl | rfl
  · exact colPiece_at x0 x1 3072 (by omega) slices_S4x3x4096_o0_0_3072_S4x1x1024 slices_S4x3x4096_o0_1_3072_S4x1x1024
      slices_S4x3x4096_o0_2_3072_S4x1x1024 inb_S1x4x4096_S1x4x1024_0_0_3072 x
  · exact colPiece_at x0 x1 2048 (by omega) slices_S4x3x4096_o0_0_2048_S4x1x1024 slices_S4x3x4096_o0_1_2048_S4x1x1024
      slices_S4x3x4096_o0_2_2048_S4x1x1024 inb_S1x4x4096_S1x4x1024_0_0_2048 x
  · exact colPiece_at x0 x1 1024 (by omega) slices_S4x3x4096_o0_0_1024_S4x1x1024 slices_S4x3x4096_o0_1_1024_S4x1x1024
      slices_S4x3x4096_o0_2_1024_S4x1x1024 inb_S1x4x4096_S1x4x1024_0_0_1024 x
  · exact colPiece_at x0 x1 0 (by omega) slices_S4x3x4096_o0_0_0_S4x1x1024 slices_S4x3x4096_o0_1_0_S4x1x1024
      slices_S4x3x4096_o0_2_0_S4x1x1024 inb_S1x4x4096_S1x4x1024_0_0_0 x

end Cert.Chamfer.Body

end
-- ==== Proof.Blocks.lean ====
/-
  From blocks to arrays: what the kernel's two output arrays hold when the region ends.

  Before the region the host swaps the last two axes of each cloud, so that the region's first two arrays are `[4, 3, 4096]`:
  coordinate along the middle axis, point along the last. The grid has 16 points. At point `t` the first window's block is
  the 256 points `256 t … 256 t + 255` of the first cloud (all batches, all coordinates), the second window's block is the
  whole second cloud; the first output's block is columns `256 t … 256 t + 255` of a `[4, 4096]` array and the second
  output's block is slab `t` of a `[16, 4, 4096]` array. These relations between the index maps are decided once over the 16
  points.

  So what point `t` writes back through the first output is block `t` of `nearX` — per point of the first cloud the least
  distance to the second cloud — and through the second output block `t` of `nearYTile` — per tile of 256 points of the
  first cloud and per point of the second, the least distance to a point of the tile. Every index of either array lies
  in exactly the block of the point its row or slab names, so the arrays end holding `nearX` and `nearYTile` of the clouds
  as launched.
-/
import proofs.«120493_j19207093748111_2_alg».proof.Proof.Gen.KernelIdeal.Frame
import proofs.«120493_j19207093748111_2_alg».proof.Proof.Minima
import Idealize.ShloMosaic.Lib.Pipeline.Value
import Idealize.ShloMosaic.Lib.ValueLayout
import Idealize.ShloMosaic.Lib.StableHlo.Run

set_option maxRecDepth 16384

noncomputable section

namespace Cert.Chamfer.Kernel

open Cert.KernelIdeal Cert.KernelIdeal.Gen Cert.Chamfer Cert.Chamfer.Body
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The two clouds as launched. -/
abbrev cloudX : Pts.Idx → EReal := m ((c : Thread nD τ).loc main_arg0)
abbrev cloudY : Pts.Idx → EReal := m ((c : Thread nD τ).loc main_arg1)

/-! ## The region's input arrays: the clouds with their last two axes swapped -/

theorem V_xt : (V m c main_call0_v0 : S4x3x4096.Idx → EReal)
    = transpose S4x3x4096 [0, 2, 1] (cloudX m c) transposes_S4x4096x3_S4x3x4096_0_2_1 := by
  show StableHlo.after hostOps0 (fun b => m (c, b)) (Proc.devRef .tc main_call0_v0) = _
  after_results
  rfl

theorem V_yt : (V m c main_call0_v1 : S4x3x4096.Idx → EReal)
    = transpose S4x3x4096 [0, 2, 1] (cloudY m c) transposes_S4x4096x3_S4x3x4096_0_2_1 := by
  show StableHlo.after hostOps0 (fun b => m (c, b)) (Proc.devRef .tc main_call0_v1) = _
  after_results
  rfl

/-- The first input array at `(b, k, i)` is coordinate `k` of point `i` of the first cloud … -/
theorem xt_at (b : Fin 4) (k : Fin 3) (i : Fin 4096) : V m c main_call0_v0 (ix3 b k i) = cloudX m c (ix3 b i k) := by
  rw [V_xt]; exact transpose_ix3_021_apply _ _ b k i
/-- … and the second likewise of the second cloud. -/
theorem yt_at (b : Fin 4) (k : Fin 3) (i : Fin 4096) : V m c main_call0_v1 (ix3 b k i) = cloudY m c (ix3 b i k) := by
  rw [V_yt]; exact transpose_ix3_021_apply _ _ b k i

/-! ## The index maps over the grid -/

theorem idx_facts : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 3) = t.val ∧ win0_3.index t (1 : Fin 3) = 0 ∧ win0_3.index t (2 : Fin 3) = 0 :=
  (by decide +kernel : ∀ t : Fin grid0.N, _)

/-- A grid point as a tile of the first cloud. -/
def tileOf (t : Fin cfg0.N) : Fin 16 := ⟨t.val, by have h : t.val < grid0.N := t.isLt; have e : grid0.N = 16 := N_0; omega⟩

/-! ## The input blocks at a point -/

/-- The first window's block at point `t` holds, at `(b, k, r)`, coordinate `k` of point `256 t + r` of the first cloud. -/
theorem blockX_at (t : Fin cfg0.N) (b : Fin 4) (k : Fin 3) (r : Fin 256) :
    iblk m c 0 t (ix3 b k r) = cloudX m c (ix3 b (tileRow (tileOf t) r) k) := by
  show V m c main_call0_v0 (((cfg0.win 0).blk t).view.emb (ix3 b k r)) = _
  obtain ⟨e0, e1, e2, -⟩ := idx_facts t
  have e : ((cfg0.win 0).blk t).view.emb (ix3 b k r) = ix3 b k (tileRow (tileOf t) r) := by
    funext a; apply Fin.ext
    match a with
    | ⟨0, _⟩ => show win0_0.index t (0 : Fin 3) * 4 + 1 * b.val = b.val; omega
    | ⟨1, _⟩ => show win0_0.index t (1 : Fin 3) * 3 + 1 * k.val = k.val; omega
    | ⟨2, _⟩ => show win0_0.index t (2 : Fin 3) * 256 + 1 * r.val = 256 * t.val + r.val; omega
  rw [e]; exact xt_at m c b k _

/-- The second window's block at every point is the whole second cloud. -/
theorem blockY_at (t : Fin cfg0.N) (b : Fin 4) (k : Fin 3) (i : Fin 4096) :
    iblk m c 1 t (ix3 b k i) = cloudY m c (ix3 b i k) := by
  show V m c main_call0_v1 (((cfg0.win 1).blk t).view.emb (ix3 b k i)) = _
  obtain ⟨-, -, -, e0, e1, e2, -⟩ := idx_facts t
  have e : ((cfg0.win 1).blk t).view.emb (ix3 b k i) = ix3 b k i := by
    funext a; apply Fin.ext
    match a with
    | ⟨0, _⟩ => show win0_1.index t (0 : Fin 3) * 4 + 1 * b.val = b.val; omega
    | ⟨1, _⟩ => show win0_1.index t (1 : Fin 3) * 3 + 1 * k.val = k.val; omega
    | ⟨2, _⟩ => show win0_1.index t (2 : Fin 3) * 4096 + 1 * i.val = i.val; omega
  rw [e]; exact yt_at m c b k i

/-- So the distances the body forms from its two blocks at point `t` are the clouds' distances from tile `t`'s points. -/
theorem bdist_blocks (t : Fin cfg0.N) (b : Fin 4) (r : Fin 256) (i : Fin 4096) :
    bdist (iblk m c 0 t) (iblk m c 1 t) b r i = dist (cloudX m c) (cloudY m c) b (tileRow (tileOf t) r) i := by
  unfold bdist dist
  congr 1
  · funext k; exact blockX_at m c t b k r
  · funext k; exact blockY_at m c t b k i

/-! ## The first output array -/

theorem flushed2_eq (t : Fin cfg0.N) :
    (dats m 0 c).flushed 2 t = ((cfg0.win 2).blk t).view.read (Elt Ideal) (nearX (cloudX m c) (cloudY m c)) := by
  show (cfg0.win 2).cut (grid0.coords t) ((dats m 0 c).after 2 t) = _
  rw [after0_2]
  funext j
  obtain ⟨b, r, rfl⟩ : ∃ (b : Fin 4) (r : Fin 256), j = ix2 b r := ⟨j 0, j 1, eq_ix2 j⟩
  show out0_2 (iblk m c 0 t) (iblk m c 1 t) (ix2 b r)
    = nearX (cloudX m c) (cloudY m c) (((cfg0.win 2).blk t).view.emb (ix2 b r))
  obtain ⟨-, -, -, -, -, -, e0, e1, -⟩ := idx_facts t
  have e : ((cfg0.win 2).blk t).view.emb (ix2 b r) = ix2 b (tileRow (tileOf t) r) := by
    funext a; apply Fin.ext
    match a with
    | ⟨0, _⟩ => show win0_2.index t (0 : Fin 2) * 4 + 1 * b.val = b.val; omega
    | ⟨1, _⟩ => show win0_2.index t (1 : Fin 2) * 256 + 1 * r.val = 256 * t.val + r.val; omega
  rw [e, out2_at]
  exact Finset.fold_congr fun i _ => bdist_blocks m c t b r i

theorem mem_blk2 (t : Fin cfg0.N) (i : S4x4096.Idx) :
    i ∈ ((cfg0.win 2).blk t).view.set ↔ ∀ a : Fin 2, win0_2.index t a * S4x256.size a ≤ (i a).val
      ∧ (i a).val < win0_2.index t a * S4x256.size a + S4x256.size a := by
  show i ∈ ((View.whole main_call0_v2_0).slice (win0_2.rect t)).set ↔ _
  rw [View.set_slice_whole, Rect.mem_set_unit]
  exact Iff.rfl

/-- Column `i` of the first output lies in the block of point `i / 256`. -/
theorem cover2 (i : S4x4096.Idx) : ∃ t : Fin cfg0.N, (cfg0.win 2).flush t = true ∧ i ∈ ((cfg0.win 2).blk t).view.set := by
  have hi0 : (i 0).val < 4 := (i 0).isLt
  have hi1 : (i 1).val < 4096 := (i 1).isLt
  have hN : grid0.N = 16 := N_0
  have hN' : cfg0.N = 16 := N_0
  refine ⟨⟨(i 1).val / 256, by omega⟩, flush0_2 _, ?_⟩
  rw [mem_blk2]
  obtain ⟨-, -, -, -, -, -, e0, e1, -⟩ := idx_facts ⟨(i 1).val / 256, by omega⟩
  have e1' : win0_2.index ⟨(i 1).val / 256, by omega⟩ (1 : Fin 2) = (i 1).val / 256 := e1
  intro a
  match a with
  | ⟨0, _⟩ =>
    show win0_2.index _ (0 : Fin 2) * 4 ≤ (i 0).val ∧ (i 0).val < win0_2.index _ (0 : Fin 2) * 4 + 4
    omega
  | ⟨1, _⟩ =>
    show win0_2.index _ (1 : Fin 2) * 256 ≤ (i 1).val ∧ (i 1).val < win0_2.index _ (1 : Fin 2) * 256 + 256
    omega

/-- THE FIRST OUTPUT ARRAY when the region ends: per point of the first cloud the least distance to the second. -/
theorem final2 : (dats m 0 c).arrAt 2 cfg0.N = nearX (cloudX m c) (cloudY m c) :=
  (dats m 0 c).arrAt_eq_of_cover 2 _ (fun t _ => flushed2_eq m c t) cover2

/-! ## The second output array -/

theorem flushed3_eq (t : Fin cfg0.N) :
    (dats m 0 c).flushed 3 t = ((cfg0.win 3).blk t).view.read (Elt Ideal) (nearYTile (cloudX m c) (cloudY m c)) := by
  show (cfg0.win 3).cut (grid0.coords t) ((dats m 0 c).after 3 t) = _
  rw [after0_3, out3_eq]
  funext j
  obtain ⟨u, b, i, rfl⟩ : ∃ (u : Fin 1) (b : Fin 4) (i : Fin 4096), j = ix3 u b i := ⟨j 0, j 1, j 2, eq_ix3 j⟩
  show colMin (iblk m c 0 t) (iblk m c 1 t) (ix3 u b i)
    = nearYTile (cloudX m c) (cloudY m c) (((cfg0.win 3).blk t).view.emb (ix3 u b i))
  obtain ⟨-, -, -, -, -, -, -, -, e0, e1, e2⟩ := idx_facts t
  have e : ((cfg0.win 3).blk t).view.emb (ix3 u b i) = ix3 (tileOf t) b i := by
    funext a; apply Fin.ext
    match a with
    | ⟨0, _⟩ => show win0_3.index t (0 : Fin 3) * 1 + 1 * u.val = t.val; omega
    | ⟨1, _⟩ => show win0_3.index t (1 : Fin 3) * 4 + 1 * b.val = b.val; omega
    | ⟨2, _⟩ => show win0_3.index t (2 : Fin 3) * 4096 + 1 * i.val = i.val; omega
  rw [e]
  exact Finset.fold_congr fun r _ => bdist_blocks m c t b r i

theorem mem_blk3 (t : Fin cfg0.N) (i : S16x4x4096.Idx) :
    i ∈ ((cfg0.win 3).blk t).view.set ↔ ∀ a : Fin 3, win0_3.index t a * S1x4x4096.size a ≤ (i a).val
      ∧ (i a).val < win0_3.index t a * S1x4x4096.size a + S1x4x4096.size a := by
  show i ∈ ((View.whole main_call0_v2_1).slice (win0_3.rect t)).set ↔ _
  rw [View.set_slice_whole, Rect.mem_set_unit]
  exact Iff.rfl

/-- Slab `s` of the second output is the block of point `s`. -/
theorem cover3 (i : S16x4x4096.Idx) : ∃ t : Fin cfg0.N, (cfg0.win 3).flush t = true ∧ i ∈ ((cfg0.win 3).blk t).view.set := by
  have hi0 : (i 0).val < 16 := (i 0).isLt
  have hi1 : (i 1).val < 4 := (i 1).isLt
  have hi2 : (i 2).val < 4096 := (i 2).isLt
  have hN : grid0.N = 16 := N_0
  have hN' : cfg0.N = 16 := N_0
  refine ⟨⟨(i 0).val, by omega⟩, flush0_3 _, ?_⟩
  rw [mem_blk3]
  obtain ⟨-, -, -, -, -, -, -, -, e0, e1, e2⟩ := idx_facts ⟨(i 0).val, by omega⟩
  have e0' : win0_3.index ⟨(i 0).val, by omega⟩ (0 : Fin 3) = (i 0).val := e0
  intro a
  match a with
  | ⟨0, _⟩ =>
    show win0_3.index _ (0 : Fin 3) * 1 ≤ (i 0).val ∧ (i 0).val < win0_3.index _ (0 : Fin 3) * 1 + 1
    omega
  | ⟨1, _⟩ =>
    show win0_3.index _ (1 : Fin 3) * 4 ≤ (i 1).val ∧ (i 1).val < win0_3.index _ (1 : Fin 3) * 4 + 4
    omega
  | ⟨2, _⟩ =>
    show win0_3.index _ (2 : Fin 3) * 4096 ≤ (i 2).val ∧ (i 2).val < win0_3.index _ (2 : Fin 3) * 4096 + 4096
    omega

/-- THE SECOND OUTPUT ARRAY when the region ends: per tile of the first cloud and point of the second, the least distance
    to a point of the tile. -/
theorem final3 : (dats m 0 c).arrAt 3 cfg0.N = nearYTile (cloudX m c) (cloudY m c) :=
  (dats m 0 c).arrAt_eq_of_cover 3 _ (fun t _ => flushed3_eq m c t) cover3

end Cert.Chamfer.Kernel

end
-- ==== Proof.KernelValue.lean ====
/-
  The kernel's run, read to its result.

  When the region ends its first output array holds `nearX` and its second `nearYTile` of the clouds as launched
  (`final2`, `final3`). The host then takes the minimum of the second array over its 16 slabs — which is `nearY`, the minimum
  over all 4096 rows taken tile by tile (`nearY_eq_tiles`) — and ends with the operations `loss` names: each array's sum
  divided by 16384, the quotients added, the total multiplied by one. Those last operations are the reference's own and are
  never opened.
-/
import proofs.«120493_j19207093748111_2_alg».proof.Proof.Blocks
import proofs.«120493_j19207093748111_2_alg».proof.Proof.LibMinReduce
import Idealize.ShloMosaic.Lib.StableHlo.Run

set_option maxRecDepth 16384

noncomputable section

namespace Cert.Chamfer.Kernel

open Cert.KernelIdeal Cert.KernelIdeal.Gen Cert.Chamfer
open Idealize.ShloMosaic Idealize.ShloMosaic.TcCoe Idealize.ShloMosaic.ValueIdx Idealize.SL.Sem

/-! ## The minimum over the 16 slabs -/

theorem red0 : S16x4x4096.Reduces [0] S4x4096 := by decide

/-- The host's minimum of the per-tile array along its leading axis is, per point of the second cloud, the least distance
    to any point of the first. -/
theorem tilesMin_eq (X Y : Pts.Idx → EReal) :
    Host.reduce FloatOps.minimumf (nearYTile X Y) (constant (F := Ideal) S_ .f32 0x7F800000#32)
        reducesTo_S16x4x4096_S4x4096_d0 h_S_
      = nearY X Y := by
  funext j
  obtain ⟨b, i, rfl⟩ : ∃ (b : Fin 4) (i : Fin 4096), j = ix2 b i := ⟨j 0, j 1, eq_ix2 j⟩
  refine (Cert.MinReduce.hostReduce_minimumf_single _ _ reducesTo_S16x4x4096_S4x4096_d0 red0 h_S_ (ix2 b i)).trans ?_
  rw [← nearY_eq_tiles]
  show Finset.univ.fold min top (fun t : Fin 16 => nearYTile X Y (red0.lift (ix2 b i) t))
    = Finset.univ.fold min top fun t : Fin 16 => nearYTile X Y (ix3 t b i)
  refine Finset.fold_congr fun t _ => ?_
  rw [show red0.lift (ix2 b i) t = ix3 t b i from
    funext fun a => match a with | ⟨0, _⟩ => rfl | ⟨1, _⟩ => rfl | ⟨2, _⟩ => rfl]

/-- The host operations after the region, as one function of the two arrays the region leaves: the first array's sum and the
    sum of the second's minimum over its slabs, each divided by 16384, added, the total multiplied by one. -/
def hostTail (A : S4x4096.Idx → EReal) (B : S16x4x4096.Idx → EReal) : S_.Idx → EReal :=
  mulf (F := Ideal) (φ := .f32) (constant S_ .f32 0x3F800000#32)
    (addf
      (Host.divf (Host.reduceAdd (F := Ideal) (φ := .f32) A (constant S_ .f32 0x00000000#32) reducesTo_S4x4096_S_d0_1 h_S_)
        (constant S_ .f32 0x46800000#32))
      (Host.divf (Host.reduceAdd (F := Ideal) (φ := .f32)
          (Host.reduce FloatOps.minimumf B (constant (F := Ideal) S_ .f32 0x7F800000#32) reducesTo_S16x4x4096_S4x4096_d0 h_S_)
          (constant S_ .f32 0x00000000#32) reducesTo_S4x4096_S_d0_1 h_S_)
        (constant S_ .f32 0x46800000#32)))

/-- Of the arrays of least distances per point and per tile, it is the loss. -/
theorem hostTail_eq (X Y : Pts.Idx → EReal) (A : S4x4096.Idx → EReal) (B : S16x4x4096.Idx → EReal)
    (hA : A = nearX X Y) (hB : B = nearYTile X Y) : hostTail A B = loss (nearX X Y) (nearY X Y) := by
  subst hA hB
  unfold hostTail
  rw [tilesMin_eq]
  rfl

/-- Contents moved to a buffer's own type and back are unchanged. -/
theorem ofBuf_toBuf {T : BufTy} (x : StableHlo.TRef sig T) (v : T.Contents (Elt Ideal)) : x.ofBuf (x.toBuf v) = v := by
  obtain ⟨r, h, h2, h3⟩ := x
  subst h
  rfl

/-- From any contents of the buffers, the host operations after the region leave in the result buffer that function of
    the two arrays' contents. -/
theorem after_tail (W : Valuation τ sig (Elt Ideal)) :
    StableHlo.after (hostOps1 (F := Ideal)) W (Proc.devRef .tc main_v0)
      = hostTail (W (Proc.devRef .tc main_call0_v2_0)) (W (Proc.devRef .tc main_call0_v2_1)) := by
  after_results
  simp only [ofBuf_toBuf]
  rfl

variable (m : (ℓ : Loc nD τ sig) → Buf (Elt Ideal) ℓ) (ρ : Dev nD → PrngReg) (c : Dev nD)

/-! ## The result -/

/-- What the host operations after the region leave in the result buffer. -/
theorem tail_eq : Pipeline.afterTail₀ cfgs (dats m) 0 (V0 m) [hostOps1] c main_v0
    = loss (nearX (cloudX m c) (cloudY m c)) (nearY (cloudX m c) (cloudY m c)) := by
  unfold Pipeline.afterTail₀
  show StableHlo.after hostOps1 _ (Proc.devRef .tc main_v0) = _
  refine (after_tail _).trans ?_
  exact hostTail_eq (cloudX m c) (cloudY m c) _ _
    ((Pipeline.withArrays_arr spec0 launch0.win.arr_inj c _ _ 2).trans (final2 m c))
    ((Pipeline.withArrays_arr spec0 launch0.win.arr_inj c _ _ 3).trans (final3 m c))

/-- THE KERNEL'S RUN: every weakly fair execution ends with the result at the loss of the two arrays of least distances of
    the clouds as launched, and the clouds unchanged. -/
theorem run : θ_run defs (onTc (τ := τ) (main (F := Ideal))) ⟨m, fun _ => 0, ρ⟩ fun r => ∀ c : Dev nD,
      r.2.mem ((c.tc : Thread nD τ).loc main_v0) = loss (nearX (cloudX m c) (cloudY m c)) (nearY (cloudX m c) (cloudY m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v0 (Pipeline.mem_restRefs_of main_v0 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.Chamfer.Kernel

end
-- ==== Proof.lean ====
/- The proof of `Cert.Claim`: a chamfer loss between two clouds of points, computed by a tiled kernel and by its plain reference.

   Both programs take two clouds `X`, `Y : [4, 4096, 3]` and return one number: the mean over the points of `X` of the least
   distance to a point of `Y`, plus the mean over the points of `Y` of the least distance to a point of `X`, the distance of two
   points being the sum of the absolute differences of their three coordinates (Proof/Spec.lean: `dist`, `nearX`, `nearY`,
   `loss`). The reference forms all 4 × 4096 × 4096 distances and takes the two minima along an axis each
   (Proof/RefValue.lean). The kernel never holds them all: it cuts `X` into 16 tiles of 256 points and `Y` into 4 chunks of
   1024; per tile it keeps, for each of the tile's points, a running minimum over the chunks, and writes, for each point of
   `Y`, the minimum over the tile's points; the host then takes the minimum of those over the 16 tiles
   (Proof/Payload.lean, Proof/Minima.lean, Proof/Blocks.lean, Proof/KernelValue.lean).

   The two agree because a minimum of a finite family does not depend on how the family is cut up or in what order its
   members are met: a running minimum over four chunks, and a minimum over sixteen tiles of the tiles' minima, are both the
   minimum over all 4096 (Proof/LibMinFold.lean) — laws of `min` in any linear order, true of `+∞`, `−∞` and the reals
   alike, so nothing is asked of the inputs. The distances themselves are the same expression on both sides, and so are the
   sums, quotients and product that follow the minima.

   The three frames are the generated ones (the reference's is its generated run with the result dropped); the kernel's
   idealization rewrote no operation, so `preserves` has nothing to state. -/
import proofs.«120493_j19207093748111_2_alg».proof.Defs
import proofs.«120493_j19207093748111_2_alg».proof.Proof.Gen.Kernel
import proofs.«120493_j19207093748111_2_alg».proof.Proof.Gen.Kernel.Skeleton
import proofs.«120493_j19207093748111_2_alg».proof.Proof.Gen.Kernel.Launch
import proofs.«120493_j19207093748111_2_alg».proof.Proof.Gen.Kernel.Points
import proofs.«120493_j19207093748111_2_alg».proof.Proof.Gen.Kernel.Frame
import proofs.«120493_j19207093748111_2_alg».proof.Proof.Gen.KernelIdeal
import proofs.«120493_j19207093748111_2_alg».proof.Proof.Gen.KernelIdeal.Skeleton
import proofs.«120493_j19207093748111_2_alg».proof.Proof.Gen.KernelIdeal.Launch
import proofs.«120493_j19207093748111_2_alg».proof.Proof.Gen.KernelIdeal.Points
import proofs.«120493_j19207093748111_2_alg».proof.Proof.Gen.KernelIdeal.Frame
import proofs.«120493_j19207093748111_2_alg».proof.Proof.Gen.ReferenceIdeal
import proofs.«120493_j19207093748111_2_alg».proof.Proof.Gen.ReferenceIdeal.Read
import proofs.«120493_j19207093748111_2_alg».proof.Proof.Gen.Pre_finite_inputs
import proofs.«120493_j19207093748111_2_alg».proof.Proof.RefValue
import proofs.«120493_j19207093748111_2_alg».proof.Proof.KernelValue
import Idealize.ShloMosaic.Adequacy
import Idealize.ShloMosaic.Init

noncomputable section

namespace Cert.Proof

open Idealize.ShloMosaic Idealize.ShloMosaic.TcCoe Idealize.SL.Sem Cert.Chamfer

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From clouds that agree, both programs end at the loss of the two arrays of least distances. -/
theorem algebraic : Cert.algebraic_KernelIdeal_ReferenceIdeal := by
  intro m ρ m' ρ' _ hagree
  refine ⟨fun c => loss (nearX (Kernel.cloudX m c) (Kernel.cloudY m c)) (nearY (Kernel.cloudX m c) (Kernel.cloudY m c)),
    Cert.Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.Chamfer.Ref.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
